-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S256x513 : Shape := ⟨2, ![256, 513]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S256x513 : S_.BroadcastsInDim S256x513 (![] : Fin 0 → Fin S256x513.rank)
  reducesTo_S256x513_S_d0_1 : S256x513.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S1024x512 .f32) (main_arg1 : FVec F S256x513 .f32) (main_arg2 : FVec F S512 .f32) (main_arg3 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S256x513 .f32 := Host.absf main_arg1
  let main_cst_0 : FVec F S_ .f32 := constant S_ .f32 0x7F800000#32
  let main_v5 : FVec F S256x513 .f32 := broadcastInDim S256x513 ![] bcast_S_S256x513 main_cst_0
  let main_v6 : IVec S256x513 1 := cmpf .olt main_v4 main_v5
  let main_c_1 : IVec S_ 1 := constantI S_ 1 1#1
  let main_v7 : IVec S_ 1 := (fun x v => Host.reduce IntOp.andi x v reducesTo_S256x513_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S1024x512 : Shape := ⟨2, ![1024, 512]⟩
abbrev S256x513 : Shape := ⟨2, ![256, 513]⟩
abbrev S512 : Shape := ⟨1, ![512]⟩
abbrev S256x512 : Shape := ⟨2, ![256, 512]⟩
abbrev S256x1 : Shape := ⟨2, ![256, 1]⟩
abbrev S256 : Shape := ⟨1, ![256]⟩
abbrev S1x512 : Shape := ⟨2, ![1, 512]⟩
abbrev S1024x256 : Shape := ⟨2, ![1024, 256]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S16x512 : Shape := ⟨2, ![16, 512]⟩
abbrev S16x1x512 : Shape := ⟨3, ![16, 1, 512]⟩
abbrev S1x128x512 : Shape := ⟨3, ![1, 128, 512]⟩
abbrev S16x128x512 : Shape := ⟨3, ![16, 128, 512]⟩
abbrev S16x128 : Shape := ⟨2, ![16, 128]⟩
abbrev S_ : Shape := ⟨0, ![]⟩
abbrev S1x256 : Shape := ⟨2, ![1, 256]⟩

abbrev nBuf : Space → Nat
  | .hbm => 30
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S256x513, .f32⟩
  | .hbm, ⟨2, _⟩ => ⟨S512, .f32⟩
  | .hbm, ⟨3, _⟩ => ⟨S512, .f32⟩
  | .hbm, ⟨4, _⟩ => ⟨S256x512, .f32⟩
  | .hbm, ⟨5, _⟩ => ⟨S256x1, .f32⟩
  | .hbm, ⟨6, _⟩ => ⟨S256, .f32⟩
  | .hbm, ⟨7, _⟩ => ⟨S1x512, .f32⟩
  | .hbm, ⟨8, _⟩ => ⟨S1x512, .f32⟩
  | .hbm, ⟨9, _⟩ => ⟨S1024x256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .i1⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S1024x256, .f32⟩
  | .hbm, ⟨29, _⟩ => ⟨S1024x256, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S128x128, .f32⟩
  | .local _ .vmem, ⟨7, _⟩ => ⟨S128x128, .f32⟩
  | .local _ .vmem, ⟨8, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_cst : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c8_i32 : BitVec 32 := 8#32
  let v32 : BitVec 32 := Scalar.addi c0_i32 c8_i32
  let c1_i32 : BitVec 32 := 1#32
  ⟨c0_i32, v32, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c16_i32 : BitVec 32 := 16#32
  let v33 : BitVec 32 := Scalar.muli arg8 c16_i32
  v33
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c16_i32 : BitVec 32 := 16#32
  let v33 : BitVec 32 := Scalar.muli arg8 c16_i32
  let v34 : BitVec 32 := v33
  let v35 : Index := Scalar.indexCast v34
  let c0_14 : Index := 0#32
  ![v35.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c16_i32 : BitVec 32 := 16#32
  let v33 : BitVec 32 := Scalar.muli arg8 c16_i32
  let v34 : BitVec 32 := v33
  let v47 : Index := Scalar.indexCast v34
  let c0_17 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S256x513_S256x512_0_0 : S256x513.Slices ![0, 0] S256x512
  slices_S256x513_S256x1_0_512 : S256x513.Slices ![0, 512] S256x1
  shapeCasts_S256x1_S256 : S256x1.ShapeCasts S256
  shapeCasts_S512_S1x512 : S512.ShapeCasts S1x512
  inb_S128x512_S128x512_0_0 : ∀ a, (![0, 0] : Fin 2 → Nat) a + S128x512.size a ≤ S128x512.size a
  h_S128x512 : 0 < S128x512.numel
  reduces_S128x512_S128 : S128x512.Reduces [1] S128
  shapeCasts_S128_S128x1 : S128.ShapeCasts S128x1
  broadcasts_S128x1_S128x512 : S128x1.Broadcasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  shapeCasts_S128x512_S128x512 : S128x512.ShapeCasts S128x512
  h_S16x512 : 0 < S16x512.numel
  shapeCasts_S16x512_S16x1x512 : S16x512.ShapeCasts S16x1x512
  shapeCasts_S128x512_S1x128x512 : S128x512.ShapeCasts S1x128x512
  broadcasts_S16x1x512_S16x128x512 : S16x1x512.Broadcasts S16x128x512
  broadcasts_S1x128x512_S16x128x512 : S1x128x512.Broadcasts S16x128x512
  reduces_S16x128x512_S16x128 : S16x128x512.Reduces [2] S16x128
  h_S16x128 : 0 < S16x128.numel
  bcast_S_S256 : S_.BroadcastsInDim S256 (![] : Fin 0 → Fin S256.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x512.size a ≤ S128x512.size a
  k0_off2_inb : ∀ k0_t1 : Fin k0_t1_loop.trips, ∀ a, (k0_off2 k0_t1) a + S16x128.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1024x512.size a
  hwx0_0 : ∀ i : grid0.Coords, EltTy.bits .f32 = 32 ∨ (Rect.block (s := S1024x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S256x512.size a
  hwx0_1 : ∀ i : grid0.Coords, EltTy.bits .f32 = 32 ∨ (Rect.block (s := S256x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S1024x256.size a
  hwx0_4 : ∀ i : grid0.Coords, EltTy.bits .f32 = 32 ∨ (Rect.block (s := S1024x256) S128x128.size (cc0_transform_4 i) (hinb0_4 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S256x513 : Shape := ⟨2, ![256, 513]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S1024x513 : Shape := ⟨2, ![1024, 513]⟩
abbrev S1024x1x513 : Shape := ⟨3, ![1024, 1, 513]⟩
abbrev S1x256x513 : Shape := ⟨3, ![1, 256, 513]⟩
abbrev S1024x256x513 : Shape := ⟨3, ![1024, 256, 513]⟩
abbrev S1024x256 : Shape := ⟨2, ![1024, 256]⟩

abbrev nBuf : Space → Nat
  | .hbm => 60
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S256x513, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x1, .f32⟩
  | .hbm, ⟨25, _⟩ => ⟨S1024x512, .f32⟩
  | .hbm, ⟨26, _⟩ => ⟨S1024x512, .f32⟩
  | .hbm, ⟨27, _⟩ => ⟨S1x512, .f32⟩
  | .hbm, ⟨28, _⟩ => ⟨S1024x512, .f32⟩
  | .hbm, ⟨29, _⟩ => ⟨S1024x512, .f32⟩
  | .hbm, ⟨30, _⟩ => ⟨S1x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x1, .f32⟩
  | .hbm, ⟨35, _⟩ => ⟨S1024x513, .f32⟩
  | .hbm, ⟨36, _⟩ => ⟨S1024x1x513, .f32⟩
  | .hbm, ⟨37, _⟩ => ⟨S1x256x513, .f32⟩
  | .hbm, ⟨38, _⟩ => ⟨S1024x256x513, .f32⟩
  | .hbm, ⟨39, _⟩ => ⟨S1024x256x513, .f32⟩
  | .hbm, ⟨40, _⟩ => ⟨S1024x256x513, .f32⟩
  | .hbm, ⟨41, _⟩ => ⟨S_, .f32⟩
  | .hbm, ⟨42, _⟩ => ⟨S1024x256x513, .f32⟩
  | .hbm, ⟨43, _⟩ => ⟨S1024x256x513, .f32⟩
  | .hbm, ⟨44, _⟩ => ⟨S1024x256x513, .f32⟩
  | .hbm, ⟨45, _⟩ => ⟨S1024x256x513, .f32⟩
  | .hbm, ⟨46, _⟩ => ⟨S1024x256x513, .i1⟩
  | .hbm, ⟨47, _⟩ => ⟨S1024x256x513, .f32⟩
  | .hbm, ⟨48, _⟩ => ⟨S1024x256x513, .f32⟩
  | .hbm, ⟨49, _⟩ => ⟨S1024x256x513, .f32⟩
  | .hbm, ⟨50, _⟩ => ⟨S1024x256x513, .f32⟩
  | .hbm, ⟨51, _⟩ => ⟨S1024x256x513, .f32⟩
  | .hbm, ⟨52, _⟩ => ⟨S1024x256x513, .f32⟩
  | .hbm, ⟨53, _⟩ => ⟨S1024x256x513, .f32⟩
  | .hbm, ⟨54, _⟩ => ⟨S1024x256x513, .f32⟩
  | .hbm, ⟨55, _⟩ => ⟨S_, .f32⟩
  | .hbm, ⟨56, _⟩ => ⟨S1024x256x513, .f32⟩
  | .hbm, ⟨57, _⟩ => ⟨S1024x256x513, .f32⟩
  | .hbm, ⟨58, _⟩ => ⟨S_, .f32⟩
  | .hbm, ⟨59, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  concatenates_S1024x512_S1024x1_S1024x513_d1 : Shape.Concatenates [S1024x512, S1024x1] S1024x513 1
  bcast_S1024x513_S1024x1x513_0_2 : S1024x513.BroadcastsInDim S1024x1x513 (![0, 2] : Fin 2 → Fin S1024x1x513.rank)
  bcast_S256x513_S1x256x513_1_2 : S256x513.BroadcastsInDim S1x256x513 (![1, 2] : Fin 2 → Fin S1x256x513.rank)
  bcast_S1024x1x513_S1024x256x513_0_1_2 : S1024x1x513.BroadcastsInDim S1024x256x513 (![0, 1, 2] : Fin 3 → Fin S1024x256x513.rank)
  bcast_S1x256x513_S1024x256x513_0_1_2 : S1x256x513.BroadcastsInDim S1024x256x513 (![0, 1, 2] : Fin 3 → Fin S1024x256x513.rank)
  bcast_S_S1024x256x513 : S_.BroadcastsInDim S1024x256x513 (![] : Fin 0 → Fin S1024x256x513.rank)
  reducesTo_S1024x256x513_S1024x256_d2 : S1024x256x513.ReducesTo [2] S1024x256

variable [Facts₀]

class Facts : Prop extends Facts₀ where

variable [Facts]
-- ==== Proof.LibGateOps.lean ====
/-
  Layout, reduction and product operations of a vector program read at one entry, at the ideal values: a plain
  matrix product into the zero splat as the sum over the contracted coordinate; the sum and the maximum down the
  columns of a matrix; the rows b and b + 8 of a stack of sixteen; sixteen one-row matrices stacked into one matrix, read row by row; a column broadcast along
  the rows; and one slab of a stack of matrices loaded through its unit-stride rectangle.  Each lemma is stated at
  an index written by its coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

namespace Cert.GateOps

open Idealize.ShloMosaic Idealize.ShloMosaic.ValueIdx

/-! ## Two rows of a stack of sixteen -/

/-- Row `b` of a stack of sixteen rows (the first half). -/
def lo (b : Fin 8) : Fin 16 := ⟨b.val, by omega⟩
/-- Row `b + 8` of a stack of sixteen rows (the second half). -/
def hi (b : Fin 8) : Fin 16 := ⟨8 + b.val, by omega⟩

/-! ## A plain matrix product -/

/-- A product of an m×k by a k×n matrix (contracting the left operand's columns with the right operand's rows),
    accumulated into the zero splat, read at entry (a, b): the sum over the contracted coordinate. -/
theorem matmul_plain_apply {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Reductions down the columns of a matrix -/

/-- The source index over column `c` with row `k` inserted is (k, c). -/
theorem lift_rows {n m : ℕ} (h : Shape.Reduces ⟨2, ![n, m]⟩ [0] ⟨1, ![m]⟩) (c : Fin m) (k : Fin n) :
    h.lift (ix1 c) k = ix2 k c := by
  funext ax; apply Fin.ext
  match ax with
  | ⟨0, _⟩ => rfl
  | ⟨1, _⟩ => rfl

/-- The sum down column `c` of an n×m matrix, accumulated from the zero word. -/
theorem colSum_apply {n m : ℕ} (src : FVec Ideal ⟨2, ![n, m]⟩ .f32) (h : Shape.Reduces ⟨2, ![n, m]⟩ [0] ⟨1, ![m]⟩)
    (hφ : FKind.Formats .f32) (hacc : (0x00000000#32 : BitVec 32) = 0x00000000#32) (c : Fin m) :
    multiReduction .add [0] ⟨1, ![m]⟩ src 0x00000000#32 h hφ hacc (ix1 c) = ∑ k : Fin n, src (ix2 k c) := by
  refine (Ideal.multiReduction_add_single src 0x00000000#32 h hφ hacc (ix1 c)).trans ?_
  exact Finset.sum_congr rfl fun k _ => congrArg src (lift_rows h c k)

/-- The maximum down column `c` of an n×m matrix: the fold of `max` from minus infinity's word. -/
theorem colMax_apply {n m : ℕ} (src : FVec Ideal ⟨2, ![n, m]⟩ .f32) (h : Shape.Reduces ⟨2, ![n, m]⟩ [0] ⟨1, ![m]⟩)
    (hφ : FKind.Formats .f32) (hacc : (0xFF800000#32 : BitVec 32) = 0xFF800000#32) (c : Fin m) :
    multiReduction .maximumf [0] ⟨1, ![m]⟩ src 0xFF800000#32 h hφ hacc (ix1 c)
      = (Finset.univ : Finset (Fin n)).fold max (Ideal.ofBits .f32 0xFF800000#32) fun k => src (ix2 k c) := by
  refine (Ideal.multiReduction_maximumf_single src 0xFF800000#32 h hφ hacc (ix1 c)).trans ?_
  exact congrArg (Finset.fold max _ · Finset.univ) (funext fun k => congrArg src (lift_rows h c k))

/-! ## Sixteen rows stacked -/

/-- Sixteen 1×n matrices concatenated along the rows: row `r` of the result is the one row of piece `r`. -/
theorem stack16_apply {α : Type} {n : ℕ}
    (v0 v1 v2 v3 v4 v5 v6 v7 v8 v9 v10 v11 v12 v13 v14 v15 : (⟨2, ![1, n]⟩ : Shape).Idx → α)
    (h : Shape.Concatenates [(⟨2, ![1, n]⟩ : Shape), ⟨2, ![1, n]⟩, ⟨2, ![1, n]⟩, ⟨2, ![1, n]⟩, ⟨2, ![1, n]⟩, ⟨2, ![1, n]⟩,
      ⟨2, ![1, n]⟩, ⟨2, ![1, n]⟩, ⟨2, ![1, n]⟩, ⟨2, ![1, n]⟩, ⟨2, ![1, n]⟩, ⟨2, ![1, n]⟩, ⟨2, ![1, n]⟩, ⟨2, ![1, n]⟩,
      ⟨2, ![1, n]⟩, ⟨2, ![1, n]⟩] ⟨2, ![16, n]⟩ 0)
    (r : Fin 16) (c : Fin n) :
    concatenate ⟨2, ![16, n]⟩ 0 [⟨⟨2, ![1, n]⟩, v0⟩, ⟨⟨2, ![1, n]⟩, v1⟩, ⟨⟨2, ![1, n]⟩, v2⟩, ⟨⟨2, ![1, n]⟩, v3⟩,
        ⟨⟨2, ![1, n]⟩, v4⟩, ⟨⟨2, ![1, n]⟩, v5⟩, ⟨⟨2, ![1, n]⟩, v6⟩, ⟨⟨2, ![1, n]⟩, v7⟩, ⟨⟨2, ![1, n]⟩, v8⟩,
        ⟨⟨2, ![1, n]⟩, v9⟩, ⟨⟨2, ![1, n]⟩, v10⟩, ⟨⟨2, ![1, n]⟩, v11⟩, ⟨⟨2, ![1, n]⟩, v12⟩, ⟨⟨2, ![1, n]⟩, v13⟩,
        ⟨⟨2, ![1, n]⟩, v14⟩, ⟨⟨2, ![1, n]⟩, v15⟩] h (ix2 r c)
      = ![v0, v1, v2, v3, v4, v5, v6, v7, v8, v9, v10, v11, v12, v13, v14, v15] r (ix2 (0 : Fin 1) c) :=
  concatenate_ofFn_unit_apply (t := ⟨2, ![16, n]⟩) (s₁ := ⟨2, ![1, n]⟩) 0
    ![v0, v1, v2, v3, v4, v5, v6, v7, v8, v9, v10, v11, v12, v13, v14, v15] h rfl rfl (ix2 r c) r rfl
    (ix2 (0 : Fin 1) c) (fun b hb => by
      match b with
      | ⟨0, _⟩ => exact absurd rfl hb
      | ⟨1, _⟩ => rfl)

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One slab of a stack of matrices -/

/-- A load of slab `o` (one matrix) of a stack of `N` matrices through its unit-stride rectangle reads, at
    `(0, c, t)`, the stack at `(o, c, t)`. -/
theorem ld_slab {Val : EltTy → Type} {e : EltTy} {N a b : ℕ} (x : (⟨3, ![N, a, b]⟩ : Shape).Idx → Val e) (o : ℕ)
    (inb : ∀ ax, (![o, 0, 0] : Fin 3 → ℕ) ax + (![1, a, b] : Fin 3 → ℕ) ax ≤ (⟨3, ![N, a, b]⟩ : Shape).size ax)
    (k : Fin N) (hk : k.val = o) (c : Fin a) (t : Fin b) :
    View.ld x (Rect.unit (s := ⟨3, ![N, a, b]⟩) ![o, 0, 0] ![1, a, b] inb) (ix3 (0 : Fin 1) c t) = x (ix3 k c t) := by
  show x _ = x _
  refine congrArg x (funext fun ax => Fin.ext ?_)
  match ax with
  | ⟨0, _⟩ => show o + 1 * 0 = k.val; omega
  | ⟨1, _⟩ => show 0 + 1 * c.val = c.val; omega
  | ⟨2, _⟩ => show 0 + 1 * t.val = t.val; omega

end Cert.GateOps

end
-- ==== Proof.Softplus.lean ====
/-
  Softplus on the extended reals.

  The kernel computes the softplus of a product directly, `log (1 + e^z)`; the reference computes it in the
  overflow-safe form `max z 0 + log (1 + e^(-|z|))`. On the reals these agree: for `z ≥ 0`,
  `1 + e^z = e^z (1 + e^(-z))`, and for `z ≤ 0` the two expressions are literally the same. With the conventions
  `e^(-∞) = 0`, `e^(+∞) = +∞`, `log (+∞) = +∞` they also agree at the two infinities (`0` at `-∞`, `+∞` at `+∞`), so the
  identity holds at every extended real and no finiteness is needed to use it.
-/
import Idealize.ShloMosaic.PureOps.Ideal
import Idealize.ShloMosaic.PureOps.Ideal.Laws

noncomputable section

namespace Cert.Softplus

open Idealize.ShloMosaic

/-- On the reals: `log (1 + e^r) = max r 0 + log (1 + e^(-|r|))`. -/
theorem real_guarded (r : ℝ) : max r 0 + Real.log (1 + Real.exp (-|r|)) = Real.log (1 + Real.exp r) := by
  rcases le_total 0 r with h | h
  · rw [max_eq_left h, abs_of_nonneg h]
    have hpos : (0 : ℝ) < 1 + Real.exp (-r) := by positivity
    have e : 1 + Real.exp r = Real.exp r * (1 + Real.exp (-r)) := by
      rw [mul_add, mul_one, ← Real.exp_add, add_neg_cancel, Real.exp_zero, add_comm]
    rw [e, Real.log_mul (Real.exp_pos r).ne' hpos.ne', Real.log_exp]
  · rw [max_eq_right h, abs_of_nonpos h, neg_neg, zero_add]

/-- `log1p (exp r)` at a real is the real `log (1 + e^r)`. -/
theorem log1p_exp_coe (r : ℝ) : Ideal.log1p (Ideal.exp (r : EReal)) = ((Real.log (1 + Real.exp r) : ℝ) : EReal) := by
  have hpos : ¬ (1 + Real.exp r ≤ 0) := not_le.mpr (by positivity)
  show Ideal.log (1 + ((Real.exp r : ℝ) : EReal)) = _
  rw [← EReal.coe_one, ← EReal.coe_add, Ideal.log_coe, if_neg hpos]

/-- `log1p 0 = 0`. -/
theorem log1p_zero : Ideal.log1p 0 = 0 := by
  show Ideal.log (1 + 0) = 0
  rw [add_zero, ← EReal.coe_one, Ideal.log_coe, if_neg (by norm_num), Real.log_one, EReal.coe_zero]

/-- The inclusion of the reals is monotone, so it commutes with `max`. -/
theorem coe_max (a b : ℝ) : ((max a b : ℝ) : EReal) = max (a : EReal) (b : EReal) :=
  EReal.coe_strictMono.monotone.map_max

/-- The overflow-safe form is the direct form at EVERY extended real. -/
theorem guarded_eq (z : EReal) :
    max z 0 + Ideal.log1p (Ideal.exp (-(max z (-z)))) = Ideal.log1p (Ideal.exp z) := by
  induction z using EReal.rec with
  | bot =>
    rw [EReal.neg_bot, max_eq_right (bot_le : (⊥ : EReal) ≤ ⊤), EReal.neg_top, Ideal.exp_bot, log1p_zero,
      max_eq_right (bot_le : (⊥ : EReal) ≤ 0), add_zero]
  | top =>
    rw [EReal.neg_top, max_eq_left (bot_le : (⊥ : EReal) ≤ ⊤), EReal.neg_top, Ideal.exp_bot, log1p_zero,
      max_eq_left (le_top : (0 : EReal) ≤ ⊤), add_zero, Ideal.exp_top]
    show (⊤ : EReal) = Ideal.log (1 + ⊤)
    rw [← EReal.coe_one, EReal.coe_add_top, Ideal.log_top]
  | coe r =>
    rw [← EReal.coe_neg, ← coe_max, ← abs_eq_max_neg, ← EReal.coe_neg, log1p_exp_coe, log1p_exp_coe,
      ← EReal.coe_zero, ← coe_max, ← EReal.coe_add, real_guarded]

/-- A value never differs from itself: the reference's not-a-number guard is never taken. -/
theorem cmp_une_self (z : EReal) : Ideal.cmp .une z z = 0#1 := by
  simp [Ideal.cmp]

end Cert.Softplus

end
-- ==== Proof.Spec.lean ====
/-
  The function both programs compute, on the extended reals.

  For a row `x` of 512 entries: the mean `μ = (Σ x) / 512`, the variance `σ² = (Σ (x - μ)²) / 512`, the normalised row
  `ν k = (x k - μ) · (σ² + ε)^(-1/2) · γ k + β k`.  For a weight row `w` of 513 entries the result is

      Σ_{k < 512} (softplus (ν k · w k) - ln 2)  +  (softplus (w 512) - ln 2),

  with `softplus z = log (1 + e^z)`.  The reference appends a `1` to `ν` and sums 513 terms, each softplus written in
  its overflow-safe form; the kernel sums the first 512 terms in the direct form and adds the last, computed in the
  overflow-safe form, afterwards.  The two agree by `1 · w = w`, by splitting off the last term of a sum (addition of
  extended reals is commutative and associative: no finiteness is used) and by the identity of the two softplus forms.
  The constants `512`, `ε` and `ln 2` are the same words in both programs and are never evaluated.
-/
import proofs.«149850_j59725815218234_2_alg».proof.Proof.Softplus

noncomputable section

namespace Cert.Spec

open Idealize.ShloMosaic

/-- The word of `512.0`. -/
abbrev c512 : EReal := Ideal.ofBits .f32 0x44000000#32
/-- The word of `ε`. -/
abbrev ceps : EReal := Ideal.ofBits .f32 0x3727C5AC#32
/-- The word of `ln 2`. -/
abbrev cln2 : EReal := Ideal.ofBits .f32 0x3F317218#32
/-- The word of `1.0`. -/
abbrev cone : EReal := Ideal.ofBits .f32 0x3F800000#32
/-- The zero word. -/
abbrev czero : EReal := Ideal.ofBits .f32 0x00000000#32

theorem czero_eq : czero = 0 := Ideal.ofBits_zero_f32
theorem cone_eq : cone = 1 := by
  show Ideal.ofBits .f32 0x3F800000#32 = 1
  simp [Ideal.ofBits, Ideal.ieee, -EReal.coe_mul]; norm_num

/-- A row's mean. -/
def mean (x : Fin 512 → EReal) : EReal := Ideal.div (∑ k, x k) c512
/-- A row's variance. -/
def var (x : Fin 512 → EReal) : EReal := Ideal.div (∑ k, (x k - mean x) * (x k - mean x)) c512
/-- The reciprocal standard deviation, regularised by `ε`. -/
def rstd (x : Fin 512 → EReal) : EReal := Ideal.rsqrt (var x + ceps)
/-- The normalised, scaled and shifted row. -/
def norm (x g b : Fin 512 → EReal) (k : Fin 512) : EReal := (x k - mean x) * rstd x * g k + b k

/-- Shifted softplus, direct form. -/
def sp (z : EReal) : EReal := Ideal.log1p (Ideal.exp z) - cln2

/-- Shifted softplus in the overflow-safe form, with its not-a-number guard, as both programs' host code writes it. -/
def spGuard (z : EReal) : EReal :=
  Scalar.select (Ideal.cmp .une (z - czero) (z - czero)) (z + czero)
    (max z czero + Ideal.log1p (Ideal.exp (-(max (z - czero) (-(z - czero)))))) - cln2

/-- The guard is never taken and the overflow-safe form is the direct form. -/
theorem spGuard_eq (z : EReal) : spGuard z = sp z := by
  unfold spGuard sp
  rw [czero_eq, sub_zero, Cert.Softplus.cmp_une_self, show Scalar.select (0#1) (z + 0) _ = _ from if_neg (by decide),
    Cert.Softplus.guarded_eq]

/-- The kernel's main term: 512 shifted softplus values of products, summed. -/
def mainTerm (xn w : Fin 512 → EReal) : EReal := ∑ k, sp (xn k * w k)

/-- The specification: main term plus the last column's term. -/
def G (x g b : Fin 512 → EReal) (w : Fin 513 → EReal) : EReal :=
  mainTerm (norm x g b) (fun k => w k.castSucc) + sp (w (Fin.last 512))

/-- The normalised row with a `1` appended. -/
def ext (xn : Fin 512 → EReal) (k : Fin 513) : EReal := if h : k.val < 512 then xn ⟨k.val, h⟩ else cone

/-- The reference's form: 513 overflow-safe terms summed from the zero word. -/
def Gref (x g b : Fin 512 → EReal) (w : Fin 513 → EReal) : EReal :=
  czero + ∑ k : Fin 513, spGuard (ext (norm x g b) k * w k)

/-- The two forms agree. -/
theorem Gref_eq (x g b : Fin 512 → EReal) (w : Fin 513 → EReal) : Gref x g b w = G x g b w := by
  unfold Gref G mainTerm
  rw [czero_eq, zero_add, Fin.sum_univ_castSucc]
  congr 1
  · refine Finset.sum_congr rfl fun k _ => ?_
    rw [spGuard_eq]
    unfold ext
    rw [dif_pos (by simp : (k.castSucc : Fin 513).val < 512)]
    rfl
  · rw [spGuard_eq]
    unfold ext
    rw [dif_neg (by simp : ¬ (Fin.last 512 : Fin 513).val < 512), cone_eq, one_mul]

end Cert.Spec

end
-- ==== Proof.Payloads.lean ====
/-
  The kernel body's two stored values, read entry by entry on the extended reals.

  The first store writes the normalised block: for a 128×512 block `x`, a 1×512 scale `γ` and shift `β`, entry (r, k)
  is `Spec.norm (row r of x) γ β k`: the row sums are lane reductions, re-laid as columns and broadcast back along the rows.
  The second store, once per group of 16 rows, writes for a 16×512 slab `v` of the normalised block and the 128×512 weight
  block `w` the 16×128 matrix whose entry (r, o) is `Σ_k (softplus (v r k · w o k) - ln 2)`: the two operands are
  broadcast to 16×128×512, multiplied, and the last axis is summed.
-/
import proofs.«149850_j59725815218234_2_alg».proof.Proof.Gen.KernelIdeal.Skeleton
import proofs.«149850_j59725815218234_2_alg».proof.Proof.LibGateOps
import proofs.«149850_j59725815218234_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ## Small layout facts -/

/-- The source index over row `r` with lane `k` inserted is (r, k). -/
theorem lift_lane (h : Shape.Reduces S128x512 [1] S128) (r : Fin 128) (k : Fin 512) : h.lift (ix1 r) k = ix2 r k := by
  funext ax; apply Fin.ext
  match ax with
  | ⟨0, _⟩ => rfl
  | ⟨1, _⟩ => rfl

/-- The source index over (r, o) with the last coordinate `k` inserted is (r, o, k). -/
theorem lift_last (h : Shape.Reduces S16x128x512 [2] S16x128) (r : Fin 16) (o : Fin 128) (k : Fin 512) :
    h.lift (ix2 r o) k = ix3 r o k := by
  funext ax; apply Fin.ext
  match ax with
  | ⟨0, _⟩ => rfl
  | ⟨1, _⟩ => rfl
  | ⟨2, _⟩ => rfl

/-- The sum over the last axis of a 16×128×512 array, accumulated from the zero word, read at (r, o). -/
theorem lastSum_apply (src : FVec Ideal S16x128x512 .f32) (h : Shape.Reduces S16x128x512 [2] S16x128)
    (hφ : FKind.Formats .f32) (hacc : (0x00000000#32 : BitVec 32) = 0x00000000#32) (r : Fin 16) (o : Fin 128) :
    multiReduction .add [2] S16x128 src 0x00000000#32 h hφ hacc (ix2 r o) = ∑ k : Fin 512, src (ix3 r o k) := by
  refine (Ideal.multiReduction_add_single src 0x00000000#32 h hφ hacc (ix2 r o)).trans ?_
  exact Finset.sum_congr rfl fun k _ => congrArg src (lift_last h r o k)

/-- A vector of length `a` re-laid as an `a × 1` column reads, at (p, 0), the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    omega)

/-- A 16×512 matrix re-laid as 16×1×512 reads, at (r, 0, k), the matrix at (r, k). -/
theorem shapeCast_rows (x : S16x512.Idx → EReal) (h : S16x512.ShapeCasts S16x1x512) (r : Fin 16) (k : Fin 512) :
    shapeCast S16x1x512 x h (ix3 r (0 : Fin 1) k) = x (ix2 r k) :=
  shapeCast_apply x h _ _ (by
    rw [Shape.rowMajor_val_two, Shape.rowMajor_val_three]
    show r.val * 512 + k.val = (r.val * 1 + 0) * 512 + k.val
    omega)

/-- A 16×1×512 array broadcast along its middle axis reads, at (r, o, k), the operand at (r, 0, k). -/
theorem bcast_mid (x : S16x1x512.Idx → EReal) (h : S16x1x512.Broadcasts S16x128x512) (r : Fin 16) (o : Fin 128) (k : Fin 512) :
    broadcastTo S16x128x512 x h (ix3 r o k) = x (ix3 r (0 : Fin 1) k) :=
  broadcastTo_apply x h (ix3 r o k) (ix3 r (0 : Fin 1) k) fun ax => by
    match ax with
    | ⟨0, _⟩ => rfl
    | ⟨1, _⟩ => rfl
    | ⟨2, _⟩ => rfl

/-- A 1×128×512 array broadcast along its leading axis reads, at (r, o, k), the operand at (0, o, k). -/
theorem bcast_lead (x : S1x128x512.Idx → EReal) (h : S1x128x512.Broadcasts S16x128x512) (r : Fin 16) (o : Fin 128) (k : Fin 512) :
    broadcastTo S16x128x512 x h (ix3 r o k) = x (ix3 (0 : Fin 1) o k) :=
  broadcastTo_apply x h (ix3 r o k) (ix3 (0 : Fin 1) o k) fun ax => by
    match ax with
    | ⟨0, _⟩ => rfl
    | ⟨1, _⟩ => rfl
    | ⟨2, _⟩ => rfl

/-! ## The normalised block -/

/-- Row sums of a 128×512 block, as a 128×1 column. -/
def rowSum (v : FVec Ideal S128x512 .f32) : FVec Ideal S128x1 .f32 :=
  shapeCast S128x1 (multiReduction .add [1] S128 v 0x00000000#32 reduces_S128x512_S128 (.inl rfl) rfl) shapeCasts_S128_S128x1

theorem rowSum_apply (v : FVec Ideal S128x512 .f32) (r : Fin 128) : rowSum v (ix2 r (0 : Fin 1)) = ∑ k : Fin 512, v (ix2 r k) := by
  unfold rowSum
  rw [shapeCast_a_a1_apply]
  refine (Ideal.multiReduction_add_single v 0x00000000#32 reduces_S128x512_S128 (.inl rfl) rfl (ix1 r)).trans ?_
  exact Finset.sum_congr rfl fun k _ => congrArg v (lift_lane _ r k)

/-- Row means, as a column. -/
def meanCol (x : FVec Ideal S128x512 .f32) : FVec Ideal S128x1 .f32 :=
  divf (rowSum x) (broadcast S128x1 (Scalar.ofBits .f32 0x44000000#32))

/-- Row `r` of a block. -/
abbrev row (x : FVec Ideal S128x512 .f32) (r : Fin 128) : Fin 512 → EReal := fun k => x (ix2 r k)

theorem meanCol_apply (x : FVec Ideal S128x512 .f32) (r : Fin 128) : meanCol x (ix2 r (0 : Fin 1)) = Cert.Spec.mean (row x r) := by
  show Ideal.div (rowSum x (ix2 r (0 : Fin 1))) _ = _
  rw [rowSum_apply]
  rfl

/-- The block minus its row means. -/
def centred (x : FVec Ideal S128x512 .f32) : FVec Ideal S128x512 .f32 :=
  subf x (broadcastTo S128x512 (meanCol x) broadcasts_S128x1_S128x512)

theorem centred_apply (x : FVec Ideal S128x512 .f32) (r : Fin 128) (k : Fin 512) :
    centred x (ix2 r k) = x (ix2 r k) - Cert.Spec.mean (row x r) := by
  show x (ix2 r k) - broadcastTo S128x512 (meanCol x) broadcasts_S128x1_S128x512 (ix2 r k) = _
  rw [Cert.GateOps.broadcastTo_a1_ab_apply, meanCol_apply]

/-- Row variances, as a column. -/
def varCol (x : FVec Ideal S128x512 .f32) : FVec Ideal S128x1 .f32 :=
  divf (rowSum (mulf (centred x) (centred x))) (broadcast S128x1 (Scalar.ofBits .f32 0x44000000#32))

theorem varCol_apply (x : FVec Ideal S128x512 .f32) (r : Fin 128) : varCol x (ix2 r (0 : Fin 1)) = Cert.Spec.var (row x r) := by
  show Ideal.div (rowSum (mulf (centred x) (centred x)) (ix2 r (0 : Fin 1))) _ = _
  rw [rowSum_apply]
  unfold Cert.Spec.var
  refine congrArg (Ideal.div · _) (Finset.sum_congr rfl fun k _ => ?_)
  show centred x (ix2 r k) * centred x (ix2 r k) = _
  rw [centred_apply]

/-- Reciprocal standard deviations, as a column. -/
def rstdCol (x : FVec Ideal S128x512 .f32) : FVec Ideal S128x1 .f32 :=
  rsqrt (addf (varCol x) (broadcast S128x1 (Scalar.ofBits .f32 0x3727C5AC#32)))

theorem rstdCol_apply (x : FVec Ideal S128x512 .f32) (r : Fin 128) : rstdCol x (ix2 r (0 : Fin 1)) = Cert.Spec.rstd (row x r) := by
  show Ideal.rsqrt (varCol x (ix2 r (0 : Fin 1)) + _) = _
  rw [varCol_apply]
  rfl

/-- The normalised, scaled and shifted block. -/
def normBlock (x : FVec Ideal S128x512 .f32) (g b : FVec Ideal S1x512 .f32) : FVec Ideal S128x512 .f32 :=
  addf (mulf (mulf (centred x) (broadcastTo S128x512 (rstdCol x) broadcasts_S128x1_S128x512))
      (broadcastTo S128x512 g broadcasts_S1x512_S128x512))
    (broadcastTo S128x512 b broadcasts_S1x512_S128x512)

/-- The one row of a 1×512 array. -/
abbrev row1 (g : FVec Ideal S1x512 .f32) : Fin 512 → EReal := fun k => g (ix2 (0 : Fin 1) k)

theorem normBlock_apply (x : FVec Ideal S128x512 .f32) (g b : FVec Ideal S1x512 .f32) (r : Fin 128) (k : Fin 512) :
    normBlock x g b (ix2 r k) = Cert.Spec.norm (row x r) (row1 g) (row1 b) k := by
  show centred x (ix2 r k) * broadcastTo S128x512 (rstdCol x) broadcasts_S128x1_S128x512 (ix2 r k)
      * broadcastTo S128x512 g broadcasts_S1x512_S128x512 (ix2 r k)
      + broadcastTo S128x512 b broadcasts_S1x512_S128x512 (ix2 r k) = _
  rw [centred_apply, Cert.GateOps.broadcastTo_a1_ab_apply, rstdCol_apply, broadcastTo_1b_ab_apply, broadcastTo_1b_ab_apply]
  rfl

/-- The first store's value is the normalised block. -/
theorem pay1_eq (x : Vec Ideal S128x512 .f32) (g b : Vec Ideal S1x512 .f32) :
    k0_pay1 (F := Ideal) x g b = normBlock x g b := by
  unfold k0_pay1 normBlock
  simp only [shapeCast_self]
  rfl

/-! ## The partial sums of one group of rows -/

/-- The second store's value at (r, o): the sum over the 512 lanes of the shifted softplus of the products. -/
theorem pay2_apply (w : Vec Ideal S128x512 .f32) (v : Vec Ideal S16x512 .f32) (r : Fin 16) (o : Fin 128) :
    k0_pay2 (F := Ideal) w v (ix2 r o)
      = Cert.Spec.mainTerm (fun k => v (ix2 r k)) (fun k => w (ix2 o k)) := by
  unfold k0_pay2 Cert.Spec.mainTerm
  refine (lastSum_apply _ reduces_S16x128x512_S16x128 (.inl rfl) rfl r o).trans ?_
  refine Finset.sum_congr rfl fun k _ => ?_
  show Ideal.log1p (Ideal.exp (broadcastTo S16x128x512 (shapeCast S16x1x512 v shapeCasts_S16x512_S16x1x512) broadcasts_S16x1x512_S16x128x512 (ix3 r o k)
      * broadcastTo S16x128x512 (shapeCast S1x128x512 (shapeCast S128x512 w shapeCasts_S128x512_S128x512) shapeCasts_S128x512_S1x128x512)
          broadcasts_S1x128x512_S16x128x512 (ix3 r o k))) - _ = _
  rw [bcast_mid, bcast_lead, shapeCast_rows, shapeCast_ab_1ab_apply, shapeCast_self]
  rfl

end Cert.KernelIdeal.Pay

end
-- ==== Proof.Body.lean ====
/-
  What the kernel body leaves in its 128×128 output block, entry by entry, on the extended reals.

  The body first stores the normalised 128×512 block into a scratch buffer; then, for each of eight groups of 16 rows,
  it loads the group's 16×512 slab back from the scratch, forms the 16×128 matrix of partial sums against the weight
  block, and stores it at rows 16·k … 16·k + 15 of the output block.  Every one of the eight stored matrices is the
  restriction, to its rows, of ONE function of the block index: entry (r, o) is the main term of row `r` of the
  normalised block against row `o` of the weight block.  The eight row groups tile the block, so the block is that
  function.
-/
import proofs.«149850_j59725815218234_2_alg».proof.Proof.Gen.KernelIdeal.Frame
import proofs.«149850_j59725815218234_2_alg».proof.Proof.Payloads
import Idealize.ShloMosaic.Lib.Pipeline.Value
import Idealize.ShloMosaic.Lib.Tactic

noncomputable section

namespace Cert.KernelIdeal.Body

open Idealize.ShloMosaic Idealize.ShloMosaic.TcCoe Idealize.SL.Sem Idealize.ShloMosaic.ValueIdx
open Cert.KernelIdeal Cert.KernelIdeal.Gen

theorem hz : (![0, 0] : Fin 2 → Nat) = fun _ => 0 := funext fun a => by fin_cases a <;> rfl

/-- The block function: entry (r, o) is the main term of row `r` of `XN` against row `o` of `w`. -/
def blockG (XN w : S128x512.Idx → EReal) : S128x128.Idx → EReal := fun y =>
  Cert.Spec.mainTerm (fun k => XN (ix2 (⟨(y 0).val, idx2_lt0 y⟩ : Fin 128) k)) (fun k => w (ix2 (⟨(y 1).val, idx2_lt1 y⟩ : Fin 128) k))

theorem blockG_apply (XN w : S128x512.Idx → EReal) (r o : Fin 128) :
    blockG XN w (ix2 r o) = Cert.Spec.mainTerm (fun k => XN (ix2 r k)) (fun k => w (ix2 o k)) := rfl

/-- One group's stored matrix is the block function restricted to the group's rows: with both rectangles at row
    offset `16·n` and lane offset `0`, entry (r, o) of the matrix computed from the loaded slab is the block function at
    (16·n + r, o). -/
theorem piece_agrees (XN w : S128x512.Idx → EReal) (n : ℕ) (off1 off2 : Fin 2 → ℕ) (h1 : off1 = ![16 * n, 0]) (h2 : off2 = ![16 * n, 0])
    (inb1 : ∀ a, off1 a + S16x512.size a ≤ S128x512.size a) (inb2 : ∀ a, off2 a + S16x128.size a ≤ S128x128.size a)
    (x : S16x128.Idx) :
    k0_pay2 (F := Ideal) w (View.ld XN (Rect.unit (s := S128x512) off1 S16x512.size inb1)) x
      = blockG XN w ((Rect.unit (s := S128x128) off2 S16x128.size inb2).emb x) := by
  subst h1 h2
  obtain ⟨r, o, rfl⟩ : ∃ (r : Fin 16) (o : Fin 128), x = ix2 r o := ⟨x 0, x 1, eq_ix2 x⟩
  rw [Cert.KernelIdeal.Pay.pay2_apply]
  unfold blockG
  congr 1
  · funext k
    show XN _ = XN _
    refine congrArg XN (funext fun ax => Fin.ext ?_)
    match ax with
    | ⟨0, _⟩ => show 16 * n + 1 * r.val = 16 * n + 1 * r.val; rfl
    | ⟨1, _⟩ => show 0 + 1 * k.val = k.val; omega
  · funext k
    show w _ = w _
    refine congrArg w (funext fun ax => Fin.ext ?_)
    match ax with
    | ⟨0, _⟩ => show o.val = 0 + 1 * o.val; omega
    | ⟨1, _⟩ => rfl

variable (c : Dev nD) (i : grid0.Coords) (arg2 : Memref sig .tc .vmem S128x512 .f32) (harg2 : arg2.IsWhole) (arg3 : Memref sig .tc .vmem S128x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S128x128 .f32) (harg6 : arg6.IsWhole) (arg7 : Memref sig .tc .vmem S128x512 .f32) (harg7 : arg7.IsWhole)

/-- One trip's one piece: the store, at the trip's row offset, of the partial sums of the slab loaded at the trip's row
    offset. -/
theorem tripL_eq {F : FTy → Type} [FloatOps F] (v30 : Vec F S128x512 .f32) (X : BufTy.Contents (Elt F) arg7.view.ty) (k : Fin k0_t1_loop.trips) :
    tripL_k0_t1 (F := F) Variants.none c none i arg2 harg2 arg3 harg3 arg4 harg4 arg5 harg5 arg6 harg6 arg7 harg7 v30 X k
      = [⟨Rect.unit (s := S128x128) (k0_off2 k) S16x128.size (k0_off2_inb k),
          k0_pay2 v30 (View.readAt (Elt F) arg7.view (Rect.unit (s := S128x512) (k0_off1 k) S16x512.size (k0_off1_inb k)).toLoadRect X)⟩] := by
  unfold tripL_k0_t1 trip_k0_t1
  rfl

/-- Every piece the first `n` trips store restricts the block function of the scratch contents and the weight block. -/
theorem pb_agree (w : Vec Ideal S128x512 .f32) (X : BufTy.Contents (Elt Ideal) arg7.view.ty) :
    ∀ n : ℕ, n ≤ k0_t1_loop.trips → ∀ p ∈ pb_k0_t1 (F := Ideal) Variants.none c none i arg2 harg2 arg3 harg3 arg4 harg4 arg5 harg5 arg6 harg6 arg7 harg7 w X n,
      ∀ x : p.1.shape.Idx, p.2 x = blockG (arg7.view.read (Elt Ideal) X) w (p.1.emb x)
  | 0, _, p, hp, _ => by rw [pb_k0_t1.eq_1] at hp; exact absurd hp List.not_mem_nil
  | n + 1, hn, p, hp, x => by
    rw [show n + 1 = (⟨n, hn⟩ : Fin k0_t1_loop.trips).val + 1 from rfl, pb_k0_t1_succ, tripL_eq] at hp
    rcases List.mem_append.mp hp with h | h
    · obtain rfl := List.mem_singleton.mp h
      exact piece_agrees (arg7.view.read (Elt Ideal) X) w n _ _ (k0_off1_eq ⟨n, hn⟩) (k0_off2_eq ⟨n, hn⟩) (k0_off1_inb ⟨n, hn⟩) (k0_off2_inb ⟨n, hn⟩) x
    · exact pb_agree w X n (Nat.le_of_succ_le hn) p h x

/-- The output block the body leaves: the block function of the normalised input block and the weight block. -/
theorem out_apply (x0 x1 : Vec Ideal S128x512 .f32) (x2 x3 : Vec Ideal S1x512 .f32) (y : S128x128.Idx) :
    out0_A_4 (F := Ideal) c i arg2 harg2 arg3 harg3 arg4 harg4 arg5 harg5 arg6 harg6 arg7 harg7 x0 x1 x2 x3 y = blockG (Cert.KernelIdeal.Pay.normBlock x0 x2 x3) x1 y := by
  have hcov := cover0_A_4 (F := Ideal) c i arg2 harg2 arg3 harg3 arg4 harg4 arg5 harg5 arg6 harg6 arg7 harg7 x0 x1 x2 x3 y
  unfold out0_A_4
  rw [View.read_writes_eq_canon _ _ _ (cover0_A_4 (F := Ideal) c i arg2 harg2 arg3 harg3 arg4 harg4 arg5 harg5 arg6 harg6 arg7 harg7 x0 x1 x2 x3)]
  revert hcov
  unfold kernelRun0_A
  dsimp only
  intro hcov
  rw [View.canon_apply_of_pieces _ _ (pb_agree c i arg2 harg2 arg3 harg3 arg4 harg4 arg5 harg5 arg6 harg6 arg7 harg7 _ _ _ (le_refl _)) y hcov]
  congr 1
  · rw [View.read_writes_junk_eq_canon]
    sl_unfold_words
    rw [View.canon_unit_zero hz]
    simp only [View.readAt_eq_ld, harg2.read_unread, harg4.read_unread, harg5.read_unread,
      View.ld_unit_zero (S := S128x512) hz, View.ld_unit_zero (S := S1x512) hz]
    exact Cert.KernelIdeal.Pay.pay1_eq x0 x2 x3
  · simp only [View.readAt_eq_ld, harg3.read_unread, View.ld_unit_zero (S := S128x512) hz]

end Cert.KernelIdeal.Body

end
-- ==== Proof.KernelValue.lean ====
/-
  The kernel region's result array: entry (n, o) of the 1024×256 array the region writes is the main term of the
  normalised row `n` of the input against the first 512 entries of row `o` of the weights.

  The region runs over an 8×2 grid; at point (i, j) it reads rows 128·i … 128·i + 127 of the input, rows
  128·j … 128·j + 127 of the sliced weights, the scale and the shift re-laid as 1×512 arrays, and writes back block
  (i, j) of the result.  Each block written back is the restriction of ONE function of the whole arrays, and the sixteen
  blocks tile the result, so the result array is that function.
-/
import proofs.«149850_j59725815218234_2_alg».proof.Proof.Gen.KernelIdeal.Frame
import proofs.«149850_j59725815218234_2_alg».proof.Proof.Gen.KernelIdeal.Points
import proofs.«149850_j59725815218234_2_alg».proof.Proof.Body
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The four argument arrays on core `c`. -/
abbrev A0 (c : Dev nD) : S1024x512.Idx → EReal := m ((c : Thread nD τ).loc main_arg0)
abbrev A1 (c : Dev nD) : S256x513.Idx → EReal := m ((c : Thread nD τ).loc main_arg1)
abbrev A2 (c : Dev nD) : S512.Idx → EReal := m ((c : Thread nD τ).loc main_arg2)
abbrev A3 (c : Dev nD) : S512.Idx → EReal := m ((c : Thread nD τ).loc main_arg3)

/-! ## What the host operations before the region leave -/

/-- The sliced weights: the first 512 columns. -/
theorem V_w (c : Dev nD) : (V m c main_v0 : S256x512.Idx → EReal)
    = extractStridedSlice S256x512 ![0, 0] (A1 m c) slices_S256x513_S256x512_0_0 := by
  show StableHlo.after hostOps0 (fun b => m (c, b)) (Proc.devRef .tc main_v0) = _
  after_results

/-- The scale as a 1×512 array. -/
theorem V_g (c : Dev nD) : (V m c main_v3 : S1x512.Idx → EReal) = shapeCast S1x512 (A2 m c) shapeCasts_S512_S1x512 := by
  show StableHlo.after hostOps0 (fun b => m (c, b)) (Proc.devRef .tc main_v3) = _
  after_results
  rfl

/-- The shift as a 1×512 array. -/
theorem V_b (c : Dev nD) : (V m c main_v4 : S1x512.Idx → EReal) = shapeCast S1x512 (A3 m c) shapeCasts_S512_S1x512 := by
  show StableHlo.after hostOps0 (fun b => m (c, b)) (Proc.devRef .tc main_v4) = _
  after_results
  rfl

/-! ## The whole-array function and the grid's index maps -/

/-- Entry (n, o) of the region's result: the main term of the normalised row `n` against row `o` of the sliced weights. -/
def Gmain (c : Dev nD) : S1024x256.Idx → EReal := fun i =>
  Cert.Spec.mainTerm
    (Cert.Spec.norm (fun k => A0 m c (ix2 (⟨(i 0).val, idx2_lt0 i⟩ : Fin 1024) k)) (fun k => A2 m c (ix1 k)) (fun k => A3 m c (ix1 k)))
    (fun k => A1 m c (ix2 (⟨(i 1).val, idx2_lt1 i⟩ : Fin 256) k.castSucc))

theorem Gmain_apply (c : Dev nD) (n : Fin 1024) (o : Fin 256) :
    Gmain m c (ix2 n o) = Cert.Spec.mainTerm
      (Cert.Spec.norm (fun k => A0 m c (ix2 n k)) (fun k => A2 m c (ix1 k)) (fun k => A3 m c (ix1 k)))
      (fun k => A1 m c (ix2 o k.castSucc)) := rfl

/-- The printed index maps, decided over the sixteen grid points: the input's row block moves with the output's row
    block, the weights' row block with the output's column block, the other block indices are zero. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 7 ∧ win0_4.index t (1 : Fin 2) ≤ 1 :=
  (by decide +kernel : ∀ t : Fin grid0.N, _)

/-- Every block of the result is some point's. -/
theorem idx_onto : ∀ (q0 : Fin 8) (q1 : Fin 2), ∃ t : Fin cfg0.N, win0_4.index t = ![q0.val, q1.val] :=
  (by decide +kernel : ∀ (q0 : Fin 8) (q1 : Fin 2), ∃ t : Fin grid0.N, win0_4.index t = ![q0.val, q1.val])

/-! ## The input blocks at a point, entry by entry -/

theorem blk_x (c : Dev nD) (t : Fin cfg0.N) (r : Fin 128) (k : Fin 512) (n : Fin 1024)
    (hn : n.val = win0_4.index t (0 : Fin 2) * 128 + r.val) :
    (iblk m c 0 t : S128x512.Idx → EReal) (ix2 r k) = A0 m c (ix2 n k) := by
  obtain ⟨e0, e1, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 128 + 1 * r.val = n.val; omega
  | ⟨1, _⟩ => show win0_0.index t (1 : Fin 2) * 512 + 1 * k.val = k.val; omega

theorem blk_w (c : Dev nD) (t : Fin cfg0.N) (o : Fin 128) (k : Fin 512) (o' : Fin 256)
    (ho : o'.val = win0_4.index t (1 : Fin 2) * 128 + o.val) :
    (iblk m c 1 t : S128x512.Idx → EReal) (ix2 o k) = A1 m c (ix2 o' k.castSucc) := by
  obtain ⟨-, -, e2, e3, -⟩ := idx_facts t
  show V m c main_v0 (((cfg0.win 1).blk t).view.emb (ix2 o k)) = _
  rw [V_w]
  refine extractStridedSlice_apply ![0, 0] (A1 m c) slices_S256x513_S256x512_0_0 _ (ix2 o' k.castSucc) fun a => ?_
  match a with
  | ⟨0, _⟩ => show o'.val = 0 + (win0_1.index t (0 : Fin 2) * 128 + 1 * o.val); omega
  | ⟨1, _⟩ => show k.val = 0 + (win0_1.index t (1 : Fin 2) * 512 + 1 * k.val); omega

theorem blk_g (c : Dev nD) (t : Fin cfg0.N) (k : Fin 512) :
    (iblk m c 2 t : S1x512.Idx → EReal) (ix2 (0 : Fin 1) k) = A2 m c (ix1 k) := by
  obtain ⟨-, -, -, -, e4, e5, -⟩ := idx_facts t
  show V m c main_v3 (((cfg0.win 2).blk t).view.emb (ix2 (0 : Fin 1) k)) = _
  rw [V_g]
  refine shapeCast_apply (A2 m c) shapeCasts_S512_S1x512 _ (ix1 k) ?_
  rw [Shape.rowMajor_val_one, Shape.rowMajor_val_two]
  show k.val = (win0_2.index t (0 : Fin 2) * 1 + 1 * 0) * 512 + (win0_2.index t (1 : Fin 2) * 512 + 1 * k.val)
  rw [e4, e5]; omega

theorem blk_b (c : Dev nD) (t : Fin cfg0.N) (k : Fin 512) :
    (iblk m c 3 t : S1x512.Idx → EReal) (ix2 (0 : Fin 1) k) = A3 m c (ix1 k) := by
  obtain ⟨-, -, -, -, -, -, e6, e7, -⟩ := idx_facts t
  show V m c main_v4 (((cfg0.win 3).blk t).view.emb (ix2 (0 : Fin 1) k)) = _
  rw [V_b]
  refine shapeCast_apply (A3 m c) shapeCasts_S512_S1x512 _ (ix1 k) ?_
  rw [Shape.rowMajor_val_one, Shape.rowMajor_val_two]
  show k.val = (win0_3.index t (0 : Fin 2) * 1 + 1 * 0) * 512 + (win0_3.index t (1 : Fin 2) * 512 + 1 * k.val)
  rw [e6, e7]; omega

/-! ## What a point writes back -/

/-- The block function of the four input blocks at point `t` is the whole-array function under the point's block. -/
theorem point_value (c : Dev nD) (t : Fin cfg0.N) (y : S128x128.Idx) :
    Cert.KernelIdeal.Body.blockG (Cert.KernelIdeal.Pay.normBlock (iblk m c 0 t) (iblk m c 2 t) (iblk m c 3 t)) (iblk m c 1 t) y
      = Gmain m c (((cfg0.win 4).blk t).view.emb y) := by
  obtain ⟨r, o, rfl⟩ : ∃ (r o : Fin 128), y = ix2 r o := ⟨y 0, y 1, eq_ix2 y⟩
  rw [Cert.KernelIdeal.Body.blockG_apply]
  unfold Gmain
  congr 1
  · funext k
    rw [Cert.KernelIdeal.Pay.normBlock_apply]
    congr 1
    · funext k'
      exact blk_x m c t r k' _ (by show win0_4.index t (0 : Fin 2) * 128 + 1 * r.val = _; omega)
    · funext k'
      exact blk_g m c t k'
    · funext k'
      exact blk_b m c t k'
  · funext k
    exact blk_w m c t o k _ (by show win0_4.index t (1 : Fin 2) * 128 + 1 * o.val = _; omega)

/-- WHAT POINT `t` WRITES BACK is block `t` of the whole-array function. -/
theorem flushed_eq (c : Dev nD) (t : Fin cfg0.N) :
    (dats m 0 c).flushed 4 t = ((cfg0.win 4).blk t).view.read (Elt Ideal) (Gmain m c) := by
  show (cfg0.win 4).cut (grid0.coords t) ((dats m 0 c).after 4 t) = _
  rw [after0_4]
  unfold outsAt0
  funext y
  show out0_A_4 (F := Ideal) c _ _ _ _ _ _ _ _ _ _ _ _ _ (iblk m c 0 t) (iblk m c 1 t) (iblk m c 2 t) (iblk m c 3 t) y
      = Gmain m c (((cfg0.win 4).blk t).view.emb y)
  rw [Cert.KernelIdeal.Body.out_apply]
  exact point_value m c t y

/-! ## The blocks tile the result -/

theorem mem_blk (t : Fin cfg0.N) (i : S1024x256.Idx) :
    i ∈ ((cfg0.win 4).blk t).view.set ↔ ∀ a : Fin 2, win0_4.index t a * S128x128.size a ≤ (i a).val
      ∧ (i a).val < win0_4.index t a * S128x128.size a + S128x128.size a := by
  show i ∈ ((View.whole main_v5).slice (win0_4.rect t)).set ↔ _
  rw [View.set_slice_whole, Rect.mem_set_unit]
  exact Iff.rfl

/-- Row `n`, column `o` is in the block of the point whose block indices are (n / 128, o / 128). -/
theorem cover (i : S1024x256.Idx) : ∃ t : Fin cfg0.N, (cfg0.win 4).flush t = true ∧ i ∈ ((cfg0.win 4).blk t).view.set := by
  have hi0 : (i 0).val < 1024 := (i 0).isLt
  have hi1 : (i 1).val < 256 := (i 1).isLt
  obtain ⟨t, ht⟩ := idx_onto ⟨(i 0).val / 128, by omega⟩ ⟨(i 1).val / 128, by omega⟩
  have q0 : win0_4.index t (0 : Fin 2) = (i 0).val / 128 := congrFun ht 0
  have q1 : win0_4.index t (1 : Fin 2) = (i 1).val / 128 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 128 ≤ (i 1).val ∧ (i 1).val < win0_4.index t (1 : Fin 2) * 128 + 128; omega

/-- THE REGION'S RESULT ARRAY after the run. -/
theorem final (c : Dev nD) : (dats m 0 c).arrAt 4 cfg0.N = Gmain m c :=
  (dats m 0 c).arrAt_eq_of_cover 4 (Gmain m c) (fun t _ => flushed_eq m c t) cover

end Cert.KernelIdeal.KValue

end
-- ==== Proof.Tail.lean ====
/-
  The host operations after the region, and the kernel's final result.

  After the region the host computes, from the last column of the weights, the shifted softplus of each of its 256
  entries (in the overflow-safe form), broadcasts that vector along the rows of the 1024×256 result and adds it to the
  region's array.  So the final result at (n, o) is the region's entry (n, o) plus the shifted softplus of the last
  entry of weight row `o`: `Spec.G` of row `n` of the input, the scale, the shift and row `o` of the weights.
-/
import proofs.«149850_j59725815218234_2_alg».proof.Proof.KernelValue

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KValue

/-- The zero splat of length 256. -/
def Zv : FVec Ideal S256 .f32 := broadcastInDim S256 ![] bcast_S_S256 (constant (F := Ideal) S_ .f32 0x00000000#32)
/-- The `ln 2` splat of length 256. -/
def Lv : FVec Ideal S256 .f32 := broadcastInDim S256 ![] bcast_S_S256 (constant (F := Ideal) S_ .f32 0x3F317218#32)

/-- The host operations after the region, as one function of the region's array `y` and the weights' last column `b`. -/
def tail (y : FVec Ideal S1024x256 .f32) (b : FVec Ideal S256 .f32) : FVec Ideal S1024x256 .f32 :=
  addf y (broadcastInDim S1024x256 ![0, 1] bcast_S1x256_S1024x256_0_1 (broadcastInDim S1x256 ![1] bcast_S256_S1x256_1
    (subf (select (cmpf .une (subf b Zv) (subf b Zv)) (addf b Zv)
        (addf (maximumf b Zv) (Host.log1p (F := Ideal) (Host.exp (F := Ideal) (Host.negf (F := Ideal) (Host.absf (F := Ideal) (subf b Zv)))))))
      Lv)))

theorem Zv_apply (o : Fin 256) : Zv (ix1 o) = Cert.Spec.czero := by
  unfold Zv
  rw [broadcastInDim_apply ![] bcast_S_S256 _ (ix1 o) ix0 (fun a => a.elim0)]
  rfl

theorem Lv_apply (o : Fin 256) : Lv (ix1 o) = Cert.Spec.cln2 := by
  unfold Lv
  rw [broadcastInDim_apply ![] bcast_S_S256 _ (ix1 o) ix0 (fun a => a.elim0)]
  rfl

/-- The tail at (n, o): the region's entry plus the overflow-safe shifted softplus of the column's entry `o`. -/
theorem tail_apply (y : FVec Ideal S1024x256 .f32) (b : FVec Ideal S256 .f32) (n : Fin 1024) (o : Fin 256) :
    tail y b (ix2 n o) = y (ix2 n o) + Cert.Spec.spGuard (b (ix1 o)) := by
  unfold tail
  rw [addf_apply,
    broadcastInDim_apply _ bcast_S1x256_S1024x256_0_1 _ (ix2 n o) (ix2 (0 : Fin 1) o)
      (fun a => by match a with | ⟨0, _⟩ => rfl | ⟨1, _⟩ => rfl),
    broadcastInDim_apply _ bcast_S256_S1x256_1 _ (ix2 (0 : Fin 1) o) (ix1 o)
      (fun a => by match a with | ⟨0, _⟩ => rfl)]
  congr 1

variable (m : (ℓ : Loc nD τ sig) → Buf (Elt Ideal) ℓ) (ρ : Dev nD → PrngReg)

/-- The weights' last column, as the host operations before the region leave it. -/
theorem V_col (c : Dev nD) : (V m c main_v2 : S256.Idx → EReal)
    = shapeCast S256 (extractStridedSlice S256x1 ![0, 512] (A1 m c) slices_S256x513_S256x1_0_512) shapeCasts_S256x1_S256 := by
  show StableHlo.after hostOps0 (fun b => m (c, b)) (Proc.devRef .tc main_v2) = _
  after_results
  rfl

theorem V_col_apply (c : Dev nD) (o : Fin 256) : (V m c main_v2 : S256.Idx → EReal) (ix1 o) = A1 m c (ix2 o (Fin.last 512)) := by
  rw [V_col]
  refine (shapeCast_apply _ shapeCasts_S256x1_S256 (ix1 o) (ix2 o (0 : Fin 1)) (by
    rw [Shape.rowMajor_val_one, Shape.rowMajor_val_two]
    show o.val * 1 + 0 = o.val
    omega)).trans ?_
  refine extractStridedSlice_apply ![0, 512] (A1 m c) slices_S256x513_S256x1_0_512 (ix2 o (0 : Fin 1)) (ix2 o (Fin.last 512)) fun a => ?_
  match a with
  | ⟨0, _⟩ => show o.val = 0 + o.val; omega
  | ⟨1, _⟩ => show 512 = 512 + 0; rfl

set_option maxHeartbeats 2000000 in
/-- The final result buffer is the tail of the region's array and the weights' last column. -/
theorem result_eq (c : Dev nD) :
    Pipeline.afterTail₀ cfgs (dats m) 0 (V0 m) [hostOps1, hostOps1_1] c main_v11
      = tail (Gmain m c) (V m c main_v2) := by
  have hy : Pipeline.withArrays (cfgs 0).spec c (V0 m c) (fun w => (dats m 0 c).arrAt w (cfgs 0).N) (Proc.devRef .tc main_v5) = Gmain m c :=
    (Pipeline.withArrays_arr spec0 launch0.win.arr_inj c _ _ 4).trans (final m c)
  have hb : Pipeline.withArrays (cfgs 0).spec c (V0 m c) (fun w => (dats m 0 c).arrAt w (cfgs 0).N) (Proc.devRef .tc main_v2) = V m c main_v2 :=
    Pipeline.withArrays_of_ne _ c (V0 m c) _ main_v2 (by exact (by decide : ∀ w, Pipeline.arrRef spec0 w ≠ main_v2))
  unfold Pipeline.afterTail₀
  show StableHlo.after ([hostOps1, hostOps1_1].flatten) _ (Proc.devRef .tc main_v11) = _
  simp only [hostOps1, hostOps1_1, List.flatten_cons, List.flatten_nil, List.append_nil, List.cons_append, List.nil_append]
  after_results_simp
  rw [hy, hb]
  rfl

/-- THE KERNEL'S RESULT AT AN ENTRY. -/
theorem result_apply (c : Dev nD) (n : Fin 1024) (o : Fin 256) :
    Pipeline.afterTail₀ cfgs (dats m) 0 (V0 m) [hostOps1, hostOps1_1] c main_v11 (ix2 n o)
      = Cert.Spec.G (fun k => A0 m c (ix2 n k)) (fun k => A2 m c (ix1 k)) (fun k => A3 m c (ix1 k)) (fun k => A1 m c (ix2 o k)) := by
  rw [result_eq, tail_apply, Gmain_apply, V_col_apply, Cert.Spec.spGuard_eq]
  rfl

end Cert.KernelIdeal.Tail

end
-- ==== Proof.RefValue.lean ====
/-
  The reference, read entry by entry on the extended reals: its result at (n, o) is `Spec.Gref` of row `n` of the
  input, the scale, the shift and row `o` of the weights — the normalised row with a `1` appended, multiplied entry by
  entry with the weight row, each product through the overflow-safe shifted softplus, the 513 values summed from zero.
-/
import proofs.«149850_j59725815218234_2_alg».proof.Proof.Gen.ReferenceIdeal.Read
import proofs.«149850_j59725815218234_2_alg».proof.Proof.Spec
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read

variable (x0 : (⟨S1024x512, .f32⟩ : BufTy).Contents (Elt Ideal)) (x1 : (⟨S256x513, .f32⟩ : BufTy).Contents (Elt Ideal)) (x2 x3 : (⟨S512, .f32⟩ : BufTy).Contents (Elt Ideal))

/-- Row `n` of the input. -/
abbrev xrow (n : Fin 1024) : Fin 512 → EReal := fun k => x0 (ix2 n k)
/-- A length-512 vector as a function of its coordinate. -/
abbrev vec (g : (⟨S512, .f32⟩ : BufTy).Contents (Elt Ideal)) : Fin 512 → EReal := fun k => g (ix1 k)
/-- Row `o` of the weights. -/
abbrev wrow (o : Fin 256) : Fin 513 → EReal := fun k => x1 (ix2 o k)

/-! ## The composed index functions of the reference's layout operations, by coordinates -/

theorem i_col (n : Fin 1024) : idx_main_v1 (ix2 n (0 : Fin 1)) = ix1 n := funext fun a => by match a with | ⟨0, _⟩ => rfl
theorem i_lane (n : Fin 1024) (k : Fin 512) : idx_main_v0 (ix1 n) k = ix2 n k :=
  funext fun a => by match a with | ⟨0, _⟩ => rfl | ⟨1, _⟩ => rfl
theorem i_col' (n : Fin 1024) : idx_main_v8 (ix2 n (0 : Fin 1)) = ix1 n := funext fun a => by match a with | ⟨0, _⟩ => rfl
theorem i_lane' (n : Fin 1024) (k : Fin 512) : idx_main_v7 (ix1 n) k = ix2 n k :=
  funext fun a => by match a with | ⟨0, _⟩ => rfl | ⟨1, _⟩ => rfl
theorem i_b4 (n : Fin 1024) (k : Fin 512) : idx_main_v4 (ix2 n k) = ix2 n (0 : Fin 1) :=
  funext fun a => by match a with | ⟨0, _⟩ => rfl | ⟨1, _⟩ => rfl
theorem i_b11 (n : Fin 1024) (k : Fin 512) : idx_main_v11 (ix2 n k) = ix2 n (0 : Fin 1) :=
  funext fun a => by match a with | ⟨0, _⟩ => rfl | ⟨1, _⟩ => rfl
theorem i_b16 (n : Fin 1024) (k : Fin 512) : idx_main_v16 (ix2 n k) = ix2 n (0 : Fin 1) :=
  funext fun a => by match a with | ⟨0, _⟩ => rfl | ⟨1, _⟩ => rfl
theorem i_g (n : Fin 1024) (k : Fin 512) : idx_main_v18 (idx_main_v19 (ix2 n k)) = ix1 k :=
  funext fun a => by match a with | ⟨0, _⟩ => rfl
theorem i_b (n : Fin 1024) (k : Fin 512) : idx_main_v21 (idx_main_v22 (ix2 n k)) = ix1 k :=
  funext fun a => by match a with | ⟨0, _⟩ => rfl
theorem i_xe (n : Fin 1024) (o : Fin 256) (k : Fin 513) : idx_main_v26 (idx_main_v28 (ix3 n o k)) = ix2 n k :=
  funext fun a => by match a with | ⟨0, _⟩ => rfl | ⟨1, _⟩ => rfl
theorem i_w (n : Fin 1024) (o : Fin 256) (k : Fin 513) : idx_main_v27 (idx_main_v29 (ix3 n o k)) = ix2 o k :=
  funext fun a => by match a with | ⟨0, _⟩ => rfl | ⟨1, _⟩ => rfl
theorem i_sum (n : Fin 1024) (o : Fin 256) (k : Fin 513) : idx_main_v34 (ix2 n o) k = ix3 n o k :=
  funext fun a => by match a with | ⟨0, _⟩ => rfl | ⟨1, _⟩ => rfl | ⟨2, _⟩ => rfl

/-- The row mean, as the reference computes it. -/
theorem mean_apply (n : Fin 1024) : val_main_v3 (F := Ideal) x0 (ix2 n (0 : Fin 1)) = Cert.Spec.mean (xrow x0 n) := by
  rw [val_main_v3_apply, val_main_v1_apply, val_main_v0_apply, val_main_v2_apply, i_col]
  simp only [i_lane]
  show Ideal.div (Cert.Spec.czero + ∑ k : Fin 512, x0 (ix2 n k)) Cert.Spec.c512 = _
  rw [Cert.Spec.czero_eq, zero_add]
  rfl

/-- The centred entry. -/
theorem centred_apply (n : Fin 1024) (k : Fin 512) :
    val_main_v5 (F := Ideal) x0 (ix2 n k) = x0 (ix2 n k) - Cert.Spec.mean (xrow x0 n) := by
  rw [val_main_v5_apply, val_main_v4_apply, i_b4]
  show x0 (ix2 n k) - val_main_v3 (F := Ideal) x0 (ix2 n (0 : Fin 1)) = _
  rw [mean_apply]

theorem centred'_apply (n : Fin 1024) (k : Fin 512) :
    val_main_v12 (F := Ideal) x0 (ix2 n k) = x0 (ix2 n k) - Cert.Spec.mean (xrow x0 n) := by
  rw [val_main_v12_apply, val_main_v11_apply, i_b11]
  show x0 (ix2 n k) - val_main_v3 (F := Ideal) x0 (ix2 n (0 : Fin 1)) = _
  rw [mean_apply]

/-- The row variance. -/
theorem var_apply (n : Fin 1024) : val_main_v10 (F := Ideal) x0 (ix2 n (0 : Fin 1)) = Cert.Spec.var (xrow x0 n) := by
  rw [val_main_v10_apply, val_main_v8_apply, val_main_v7_apply, val_main_v9_apply, i_col']
  simp only [i_lane']
  show Ideal.div (Cert.Spec.czero + ∑ k : Fin 512, val_main_v6 (F := Ideal) x0 (ix2 n k)) Cert.Spec.c512 = _
  rw [Cert.Spec.czero_eq, zero_add]
  unfold Cert.Spec.var
  refine congrArg (Ideal.div · _) (Finset.sum_congr rfl fun k _ => ?_)
  rw [val_main_v6_apply]
  show val_main_v5 (F := Ideal) x0 (ix2 n k) * val_main_v5 (F := Ideal) x0 (ix2 n k) = _
  rw [centred_apply]

/-- The reciprocal standard deviation. -/
theorem rstd_apply (n : Fin 1024) : val_main_v15 (F := Ideal) x0 (ix2 n (0 : Fin 1)) = Cert.Spec.rstd (xrow x0 n) := by
  rw [val_main_v15_apply, val_main_v14_apply, val_main_v13_apply]
  show Ideal.rsqrt (val_main_v10 (F := Ideal) x0 (ix2 n (0 : Fin 1)) + Cert.Spec.ceps) = _
  rw [var_apply]
  rfl

/-- The normalised entry. -/
theorem norm_apply (n : Fin 1024) (k : Fin 512) :
    val_main_v23 (F := Ideal) x0 x2 x3 (ix2 n k) = Cert.Spec.norm (xrow x0 n) (vec x2) (vec x3) k := by
  rw [val_main_v23_apply, val_main_v20_apply, val_main_v17_apply, val_main_v16_apply, val_main_v19_apply, val_main_v18_apply,
    val_main_v22_apply, val_main_v21_apply, i_b16, i_g, i_b]
  show val_main_v12 (F := Ideal) x0 (ix2 n k) * val_main_v15 (F := Ideal) x0 (ix2 n (0 : Fin 1)) * x2 (ix1 k) + x3 (ix1 k) = _
  rw [centred'_apply, rstd_apply]
  rfl

/-- The normalised row with a `1` appended: the first 512 columns … -/
theorem ext_left (n : Fin 1024) (k : Fin 513) (hk : k.val < 512) :
    val_main_v25 (F := Ideal) x0 x2 x3 (ix2 n k) = Cert.Spec.norm (xrow x0 n) (vec x2) (vec x3) ⟨k.val, hk⟩ := by
  unfold val_main_v25
  refine (concatenate_pair_apply_left (t := S1024x513) (s₁ := S1024x512) (s₂ := S1024x1) (1 : Fin 2) _ _
    concatenates_S1024x512_S1024x1_S1024x513_d1 (ix2 n k) rfl (ix2 n (⟨k.val, hk⟩ : Fin 512))
    (fun b => by match b with | ⟨0, _⟩ => rfl | ⟨1, _⟩ => rfl)).trans ?_
  exact norm_apply x0 x2 x3 n ⟨k.val, hk⟩

/-- … and the last. -/
theorem ext_right (n : Fin 1024) (k : Fin 513) (hk : ¬ k.val < 512) :
    val_main_v25 (F := Ideal) x0 x2 x3 (ix2 n k) = Cert.Spec.cone := by
  have hk' : k.val = 512 := by have := k.isLt; omega
  unfold val_main_v25
  refine (concatenate_pair_apply_right (t := S1024x513) (s₁ := S1024x512) (s₂ := S1024x1) (1 : Fin 2) _ _
    concatenates_S1024x512_S1024x1_S1024x513_d1 (ix2 n k) rfl rfl (ix2 n (0 : Fin 1))
    (fun b hb => by match b with | ⟨0, _⟩ => rfl | ⟨1, _⟩ => exact absurd rfl hb)
    (by show 0 + 512 = k.val; omega)).trans ?_
  rw [val_main_v24_apply]
  rfl

theorem ext_apply (n : Fin 1024) (k : Fin 513) :
    val_main_v25 (F := Ideal) x0 x2 x3 (ix2 n k) = Cert.Spec.ext (Cert.Spec.norm (xrow x0 n) (vec x2) (vec x3)) k := by
  unfold Cert.Spec.ext
  by_cases hk : k.val < 512
  · rw [dif_pos hk]; exact ext_left x0 x2 x3 n k hk
  · rw [dif_neg hk]; exact ext_right x0 x2 x3 n k hk

/-- The product at (n, o, k). -/
theorem prod_apply (n : Fin 1024) (o : Fin 256) (k : Fin 513) :
    val_main_v30 (F := Ideal) x0 x1 x2 x3 (ix3 n o k)
      = Cert.Spec.ext (Cert.Spec.norm (xrow x0 n) (vec x2) (vec x3)) k * wrow x1 o k := by
  rw [val_main_v30_apply, val_main_v28_apply, val_main_v26_apply, val_main_v29_apply, val_main_v27_apply, i_xe, i_w]
  show val_main_v25 (F := Ideal) x0 x2 x3 (ix2 n k) * x1 (ix2 o k) = _
  rw [ext_apply]

/-- Each summand is the overflow-safe shifted softplus of the product. -/
theorem summand_apply (J : S1024x256x513.Idx) :
    val_main_v33 (F := Ideal) x0 x1 x2 x3 J = Cert.Spec.spGuard (val_main_v30 (F := Ideal) x0 x1 x2 x3 J) := by
  have c0 : val_main_call0_v0 (F := Ideal) J = Cert.Spec.czero := by rw [val_main_call0_v0_apply]; rfl
  have c2 : val_main_call0_v2 (F := Ideal) J = Cert.Spec.czero := by rw [val_main_call0_v2_apply]; rfl
  have c5 : val_main_call0_v5 (F := Ideal) J = Cert.Spec.czero := by rw [val_main_call0_v5_apply]; rfl
  have c32 : val_main_v32 (F := Ideal) J = Cert.Spec.cln2 := by rw [val_main_v32_apply]; rfl
  rw [val_main_v33_apply, val_main_v31_apply, val_main_call0_v4_apply, val_main_call0_v6_apply, val_main_call0_v11_apply,
    val_main_call0_v1_apply, val_main_call0_v10_apply, val_main_call0_v9_apply, val_main_call0_v8_apply, val_main_call0_v7_apply,
    val_main_call0_v3_apply, c0, c2, c5, c32]
  generalize val_main_v30 (F := Ideal) x0 x1 x2 x3 J = z
  rfl

/-- THE REFERENCE AT AN ENTRY. -/
theorem ref_apply (n : Fin 1024) (o : Fin 256) :
    val_main_v34 (F := Ideal) x0 x1 x2 x3 (ix2 n o) = Cert.Spec.Gref (xrow x0 n) (vec x2) (vec x3) (wrow x1 o) := by
  rw [val_main_v34_apply]
  unfold Cert.Spec.Gref
  refine congrArg (Cert.Spec.czero + ·) (Finset.sum_congr rfl fun k _ => ?_)
  rw [i_sum, summand_apply, prod_apply]

end Cert.ReferenceIdeal.RefValue

end
-- ==== Proof.Result.lean ====
/-
  The common result, as one function of the four argument arrays: entry (n, o) of the 1024×256 result is `Spec.G` of row
  `n` of the input, the scale, the shift, and row `o` of the weights.
-/
import proofs.«149850_j59725815218234_2_alg».proof.Proof.Spec
import Idealize.ShloMosaic.Lib.ValueIdx

noncomputable section

namespace Cert.Spec

open Idealize.ShloMosaic Idealize.ShloMosaic.ValueIdx

/-- The result array as a function of the argument arrays. -/
def Gfun (a0 : (⟨2, ![1024, 512]⟩ : Shape).Idx → EReal) (a1 : (⟨2, ![256, 513]⟩ : Shape).Idx → EReal)
    (a2 a3 : (⟨1, ![512]⟩ : Shape).Idx → EReal) : (⟨2, ![1024, 256]⟩ : Shape).Idx → EReal := fun i =>
  G (fun k => a0 (ix2 (⟨(i 0).val, idx2_lt0 i⟩ : Fin 1024) k)) (fun k => a2 (ix1 k)) (fun k => a3 (ix1 k))
    (fun k => a1 (ix2 (⟨(i 1).val, idx2_lt1 i⟩ : Fin 256) k))

theorem Gfun_apply (a0 : (⟨2, ![1024, 512]⟩ : Shape).Idx → EReal) (a1 : (⟨2, ![256, 513]⟩ : Shape).Idx → EReal)
    (a2 a3 : (⟨1, ![512]⟩ : Shape).Idx → EReal) (n : Fin 1024) (o : Fin 256) :
    Gfun a0 a1 a2 a3 (ix2 n o)
      = G (fun k => a0 (ix2 n k)) (fun k => a2 (ix1 k)) (fun k => a3 (ix1 k)) (fun k => a1 (ix2 o k)) := rfl

end Cert.Spec

end
-- ==== Proof.lean ====
/-
  A fused layer normalisation followed by a shifted-softplus reduction, against its reference.

  Both programs take an input `x` (1024×512), weights `w` (256×513), a scale `γ` and a shift `β` (512 each).  Each row of
  `x` is normalised — `ν k = (x k - μ) · (σ² + ε)^(-1/2) · γ k + β k` with `μ`, `σ²` the row's mean and variance — and the
  result at (n, o) is the sum over the 513 columns of `softplus (ν' k · w o k) - ln 2`, where `ν'` is `ν` with a `1`
  appended and `softplus z = log (1 + e^z)`.

  The reference does exactly that, each softplus in its overflow-safe form `max z 0 + log (1 + e^(-|z|))`.  The kernel
  computes the first 512 columns' sum in blocks of 128 rows by 128 outputs (the normalised block kept in a scratch
  buffer and consumed 16 rows at a time), with the softplus in its direct form, and the host adds the last column's
  term, `softplus (w o 512) - ln 2`, afterwards.  On the extended reals the two results are equal: the two softplus forms
  agree at every extended real (Softplus), `1 · w = w`, and a sum of 513 terms is the sum of the first 512 plus the last
  (Spec).  The kernel's result is read off its generated run (Payloads, Body, KernelValue, Tail), the reference's off its
  generated run, one operation at a time (RefValue).  No rewriting of the kernel was needed for its idealised reading,
  so that part of the claim is trivial; the three termination-and-frame parts are the generated runs.
-/
import proofs.«149850_j59725815218234_2_alg».proof.Defs
import proofs.«149850_j59725815218234_2_alg».proof.Proof.Gen.Kernel
import proofs.«149850_j59725815218234_2_alg».proof.Proof.Gen.Kernel.Skeleton
import proofs.«149850_j59725815218234_2_alg».proof.Proof.Gen.Kernel.Loops
import proofs.«149850_j59725815218234_2_alg».proof.Proof.Gen.Kernel.Launch
import proofs.«149850_j59725815218234_2_alg».proof.Proof.Gen.Kernel.Points
import proofs.«149850_j59725815218234_2_alg».proof.Proof.Gen.Kernel.Frame
import proofs.«149850_j59725815218234_2_alg».proof.Proof.Gen.KernelIdeal
import proofs.«149850_j59725815218234_2_alg».proof.Proof.Gen.KernelIdeal.Skeleton
import proofs.«149850_j59725815218234_2_alg».proof.Proof.Gen.KernelIdeal.Loops
import proofs.«149850_j59725815218234_2_alg».proof.Proof.Gen.KernelIdeal.Launch
import proofs.«149850_j59725815218234_2_alg».proof.Proof.Gen.KernelIdeal.Points
import proofs.«149850_j59725815218234_2_alg».proof.Proof.Gen.KernelIdeal.Frame
import proofs.«149850_j59725815218234_2_alg».proof.Proof.Gen.ReferenceIdeal
import proofs.«149850_j59725815218234_2_alg».proof.Proof.Gen.ReferenceIdeal.Run
import proofs.«149850_j59725815218234_2_alg».proof.Proof.Gen.ReferenceIdeal.Read
import proofs.«149850_j59725815218234_2_alg».proof.Proof.Gen.Pre_finite_inputs
import proofs.«149850_j59725815218234_2_alg».proof.Proof.Tail
import proofs.«149850_j59725815218234_2_alg».proof.Proof.RefValue
import proofs.«149850_j59725815218234_2_alg».proof.Proof.Result
import Idealize.ShloMosaic.Adequacy
import Idealize.ShloMosaic.Init

noncomputable section

open Idealize.ShloMosaic Idealize.ShloMosaic.TcCoe Idealize.SL.Sem Idealize.ShloMosaic.ValueIdx

/-! ## The kernel's run, read -/

namespace Cert.KernelIdeal.Final

open Cert.KernelIdeal Cert.KernelIdeal.Gen Cert.KernelIdeal.KValue

variable (m : (ℓ : Loc nD τ sig) → Buf (Elt Ideal) ℓ) (ρ : Dev nD → PrngReg)

/-- The kernel's result buffer after the run is the common result function of its argument arrays. -/
theorem result_eq (c : Dev nD) :
    Pipeline.afterTail₀ cfgs (dats m) 0 (V0 m) [hostOps1, hostOps1_1] c main_v11
      = Cert.Spec.Gfun (A0 m c) (A1 m c) (A2 m c) (A3 m c) := by
  funext i
  obtain ⟨n, o, rfl⟩ : ∃ (n : Fin 1024) (o : Fin 256), i = ix2 n o := ⟨i 0, i 1, eq_ix2 i⟩
  rw [Cert.Spec.Gfun_apply]
  exact Cert.KernelIdeal.Tail.result_apply m c n o

/-- The run: the result at the common function, the four arguments unchanged. -/
theorem run : θ_run defs (onTc (τ := τ) (main (F := Ideal))) ⟨m, fun _ => 0, ρ⟩ fun r => ∀ c : Dev nD,
      r.2.mem ((c.tc : Thread nD τ).loc main_v11) = Cert.Spec.Gfun (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

/-! ## The reference's result -/

namespace Cert.ReferenceIdeal.Final

open Cert.ReferenceIdeal Cert.ReferenceIdeal.Gen

/-- The reference's result term is the common result function of its argument arrays. -/
theorem result_eq (m : (ℓ : Loc nD τ sig) → Buf (Elt Ideal) ℓ) (c : Dev nD) :
    Cert.ReferenceIdeal.Value.res_main_v34 m c
      = Cert.Spec.Gfun (m ((c.tc : Thread nD τ).loc main_arg0)) (m ((c.tc : Thread nD τ).loc main_arg1))
          (m ((c.tc : Thread nD τ).loc main_arg2)) (m ((c.tc : Thread nD τ).loc main_arg3)) := by
  rw [Cert.ReferenceIdeal.Read.val_main_v34_eq]
  funext i
  obtain ⟨n, o, rfl⟩ : ∃ (n : Fin 1024) (o : Fin 256), i = ix2 n o := ⟨i 0, i 1, eq_ix2 i⟩
  rw [Cert.ReferenceIdeal.RefValue.ref_apply, Cert.Spec.Gref_eq, Cert.Spec.Gfun_apply]

end Cert.ReferenceIdeal.Final

/-! ## The claims -/

namespace Cert.Proof

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealised kernel is the kernel's own text: nothing was rewritten. -/
theorem preserves : Cert.preserves_Kernel_KernelIdeal := trivial

/-- Both programs end with the common result function of arguments that agree. -/
theorem algebraic : Cert.algebraic_KernelIdeal_ReferenceIdeal := by
  intro m ρ m' ρ' _ hagree
  refine ⟨fun c => Cert.Spec.Gfun (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (m ((c.tc : Thread _ Cert.KernelIdeal.τ).loc Cert.KernelIdeal.main_arg3)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Final.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
